-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x7 : Shape := ⟨2, ![4000000, 7]⟩
abbrev S_ : Shape := ⟨0, ![]⟩

class Facts : Prop where
  bcast_S_S4000000x7 : S_.BroadcastsInDim S4000000x7 (![] : Fin 0 → Fin S4000000x7.rank)
  reducesTo_S4000000x7_S_d0_1 : S4000000x7.ReducesTo [0, 1] S_
  h_S_ : 0 < S_.numel

variable [Facts]

def fn {F : FTy → Type} [FloatOps F] (main_arg0 : FVec F S4000000x7 .f32) : IVec S_ 1 :=
  let main_v0 : FVec F S4000000x7 .f32 := Host.absf main_arg0
  let main_cst : FVec F S_ .f32 := constant S_ .f32 0x7F800000#32
  let main_v1 : FVec F S4000000x7 .f32 := broadcastInDim S4000000x7 ![] bcast_S_S4000000x7 main_cst
  let main_v2 : IVec S4000000x7 1 := cmpf .olt main_v0 main_v1
  let main_c : IVec S_ 1 := constantI S_ 1 1#1
  let main_v3 : IVec S_ 1 := (fun x v => Host.reduce IntOp.andi x v reducesTo_S4000000x7_S_d0_1 h_S_) main_v2 main_c
  main_v3
-- ==== Kernel.lean ====
abbrev S4000000x7 : Shape := ⟨2, ![4000000, 7]⟩
abbrev S7x4000000 : Shape := ⟨2, ![7, 4000000]⟩
abbrev S12x4000000 : Shape := ⟨2, ![12, 4000000]⟩
abbrev S7x80000 : Shape := ⟨2, ![7, 80000]⟩
abbrev S12x80000 : Shape := ⟨2, ![12, 80000]⟩
abbrev S1x80000 : Shape := ⟨2, ![1, 80000]⟩
abbrev S4000000x12 : Shape := ⟨2, ![4000000, 12]⟩
abbrev S4000000x3x4 : Shape := ⟨3, ![4000000, 3, 4]⟩

abbrev nBuf : Space → Nat
  | .hbm => 5
  | .vmem => 4
  | .smem => 0
  | _ => 0

abbrev bufTy : (tb : Table) → Fin (tcTables nBuf tb) → BufTy
  | .hbm, ⟨0, _⟩ => ⟨S4000000x7, .f32⟩
  | .hbm, ⟨1, _⟩ => ⟨S7x4000000, .f32⟩
  | .hbm, ⟨2, _⟩ => ⟨S12x4000000, .f32⟩
  | .hbm, ⟨3, _⟩ => ⟨S4000000x12, .f32⟩
  | .hbm, ⟨4, _⟩ => ⟨S4000000x3x4, .f32⟩
  | .local _ .vmem, ⟨0, _⟩ => ⟨S7x80000, .f32⟩
  | .local _ .vmem, ⟨1, _⟩ => ⟨S7x80000, .f32⟩
  | .local _ .vmem, ⟨2, _⟩ => ⟨S12x80000, .f32⟩
  | .local _ .vmem, ⟨3, _⟩ => ⟨S12x80000, .f32⟩
  | _, _ => ⟨S4000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4000000x7_S7x4000000_1_0 : S4000000x7.Transposes [1, 0] S7x4000000
  inb_S7x80000_S7x80000_0_0 : ∀ a, (![0, 0] : Fin 2 → Nat) a + S7x80000.size a ≤ S7x80000.size a
  h_S7x80000 : 0 < S7x80000.numel
  shapeCasts_S7x80000_S7x80000 : S7x80000.ShapeCasts S7x80000
  slices_S7x80000_o0_0_S1x80000 : S7x80000.Slices ![0, 0] S1x80000
  slices_S7x80000_o1_0_S1x80000 : S7x80000.Slices ![1, 0] S1x80000
  slices_S7x80000_o2_0_S1x80000 : S7x80000.Slices ![2, 0] S1x80000
  slices_S7x80000_o3_0_S1x80000 : S7x80000.Slices ![3, 0] S1x80000
  slices_S7x80000_o4_0_S1x80000 : S7x80000.Slices ![4, 0] S1x80000
  slices_S7x80000_o5_0_S1x80000 : S7x80000.Slices ![5, 0] S1x80000
  slices_S7x80000_o6_0_S1x80000 : S7x80000.Slices ![6, 0] S1x80000
  inb_S12x80000_S1x80000_0_0 : ∀ a, (![0, 0] : Fin 2 → Nat) a + S1x80000.size a ≤ S12x80000.size a
  h_S1x80000 : 0 < S1x80000.numel
  inb_S12x80000_S1x80000_1_0 : ∀ a, (![1, 0] : Fin 2 → Nat) a + S1x80000.size a ≤ S12x80000.size a
  inb_S12x80000_S1x80000_2_0 : ∀ a, (![2, 0] : Fin 2 → Nat) a + S1x80000.size a ≤ S12x80000.size a
  inb_S12x80000_S1x80000_3_0 : ∀ a, (![3, 0] : Fin 2 → Nat) a + S1x80000.size a ≤ S12x80000.size a
  inb_S12x80000_S1x80000_4_0 : ∀ a, (![4, 0] : Fin 2 → Nat) a + S1x80000.size a ≤ S12x80000.size a
  inb_S12x80000_S1x80000_5_0 : ∀ a, (![5, 0] : Fin 2 → Nat) a + S1x80000.size a ≤ S12x80000.size a
  inb_S12x80000_S1x80000_6_0 : ∀ a, (![6, 0] : Fin 2 → Nat) a + S1x80000.size a ≤ S12x80000.size a
  inb_S12x80000_S1x80000_7_0 : ∀ a, (![7, 0] : Fin 2 → Nat) a + S1x80000.size a ≤ S12x80000.size a
  inb_S12x80000_S1x80000_8_0 : ∀ a, (![8, 0] : Fin 2 → Nat) a + S1x80000.size a ≤ S12x80000.size a
  inb_S12x80000_S1x80000_9_0 : ∀ a, (![9, 0] : Fin 2 → Nat) a + S1x80000.size a ≤ S12x80000.size a
  inb_S12x80000_S1x80000_10_0 : ∀ a, (![10, 0] : Fin 2 → Nat) a + S1x80000.size a ≤ S12x80000.size a
  inb_S12x80000_S1x80000_11_0 : ∀ a, (![11, 0] : Fin 2 → Nat) a + S1x80000.size a ≤ S12x80000.size a
  transposes_S12x4000000_S4000000x12_1_0 : S12x4000000.Transposes [1, 0] S4000000x12
  shapeCasts_S4000000x12_S4000000x3x4 : S4000000x12.ShapeCasts S4000000x3x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x80000.size a ≤ S7x4000000.size a
  hwx0_0 : ∀ i : grid0.Coords, EltTy.bits .f32 = 32 ∨ (Rect.block (s := S7x4000000) S7x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12x80000.size a ≤ S12x4000000.size a
  hwx0_1 : ∀ i : grid0.Coords, EltTy.bits .f32 = 32 ∨ (Rect.block (s := S12x4000000) S12x80000.size (cc0_transform_1 i) (hinb0_1 i)).WholeWords (EltTy.packing .f32)

variable [Facts₀]

abbrev win0_0 : Pipeline.Window sig grid0 :=
  Pipeline.Window.ofSpec (Memref.whole main_v0) S7x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x7 : Shape := ⟨2, ![4000000, 7]⟩
abbrev S4000000x1 : Shape := ⟨2, ![4000000, 1]⟩
abbrev S4000000 : Shape := ⟨1, ![4000000]⟩
abbrev S4000000x3 : Shape := ⟨2, ![4000000, 3]⟩
abbrev S_ : Shape := ⟨0, ![]⟩
abbrev S4000000x9 : Shape := ⟨2, ![4000000, 9]⟩
abbrev S4000000x3x3 : Shape := ⟨3, ![4000000, 3, 3]⟩
abbrev S4000000x3x1 : Shape := ⟨3, ![4000000, 3, 1]⟩
abbrev S4000000x3x4 : Shape := ⟨3, ![4000000, 3, 4]⟩

abbrev nBuf : Space → Nat
  | .hbm => 90
  | .vmem => 0
  | .smem => 0
  | _ => 0

abbrev bufTy : (tb : Table) → Fin (tcTables nBuf tb) → BufTy
  | .hbm, ⟨0, _⟩ => ⟨S4000000x7, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S4000000x1, .f32⟩
  | .hbm, ⟨6, _⟩ => ⟨S4000000, .f32⟩
  | .hbm, ⟨7, _⟩ => ⟨S4000000x1, .f32⟩
  | .hbm, ⟨8, _⟩ => ⟨S4000000, .f32⟩
  | .hbm, ⟨9, _⟩ => ⟨S4000000x3, .f32⟩
  | .hbm, ⟨10, _⟩ => ⟨S4000000, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S4000000, .f32⟩
  | .hbm, ⟨15, _⟩ => ⟨S4000000, .f32⟩
  | .hbm, ⟨16, _⟩ => ⟨S4000000, .f32⟩
  | .hbm, ⟨17, _⟩ => ⟨S_, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S_, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S_, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S_, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S_, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000x1, .f32⟩
  | .hbm, ⟨78, _⟩ => ⟨S4000000x1, .f32⟩
  | .hbm, ⟨79, _⟩ => ⟨S4000000x1, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x9, .f32⟩
  | .hbm, ⟨87, _⟩ => ⟨S4000000x3x3, .f32⟩
  | .hbm, ⟨88, _⟩ => ⟨S4000000x3x1, .f32⟩
  | .hbm, ⟨89, _⟩ => ⟨S4000000x3x4, .f32⟩
  | _, _ => ⟨S4000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst_0 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_4 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_6 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_7 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_8 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_9 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_10 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩

abbrev nD : Nat := 1
abbrev τ : Topo := Topo.v7x

variable {F : FTy → Type} [FloatOps F]

class Facts₀ : Prop where
  slices_S4000000x7_S4000000x1_0_0 : S4000000x7.Slices ![0, 0] S4000000x1
  shapeCasts_S4000000x1_S4000000 : S4000000x1.ShapeCasts S4000000
  slices_S4000000x7_S4000000x1_0_1 : S4000000x7.Slices ![0, 1] S4000000x1
  slices_S4000000x7_S4000000x1_0_2 : S4000000x7.Slices ![0, 2] S4000000x1
  slices_S4000000x7_S4000000x1_0_3 : S4000000x7.Slices ![0, 3] S4000000x1
  slices_S4000000x7_S4000000x3_0_4 : S4000000x7.Slices ![0, 4] S4000000x3
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x3x1_0_1 : S4000000x3.BroadcastsInDim S4000000x3x1 (![0, 1] : Fin 2 → Fin S4000000x3x1.rank)
  concatenates_S4000000x3x3_S4000000x3x1_S4000000x3x4_d2 : Shape.Concatenates [S4000000x3x3, S4000000x3x1] S4000000x3x4 2

variable [Facts₀]

class Facts : Prop extends Facts₀ where

variable [Facts]
-- ==== Proof.PoseLaw.lean ====
/-
  Doubling on the extended reals, and the twelve entries of a pose row.

  A unit quaternion (q0, q1, q2, q3) and a translation (t0, t1, t2) give the 3 x 4 pose matrix [R | t], R the
  rotation matrix of the quaternion.  Its off-diagonal entries are written in two ways: as a doubled sum or
  difference of two products, 2 * (a * b ± d * e), and with the doubling pushed into each product,
  (2 * a) * b ± (2 * d) * e.  On the extended reals multiplication does not distribute over addition in
  general (an infinite factor times (⊤ + ⊥) is not the sum of the products), but it does for a factor that is a
  nonnegative REAL number, and 2 is one: the two spellings agree at every extended real, infinite ones
  included, so nothing here asks the entries to be finite.
-/
import Idealize.ShloMosaic.PureOps.Ideal
import Mathlib.Data.EReal.Operations
import Mathlib.Data.EReal.Inv

noncomputable section

namespace Cert.Pose

open Idealize.ShloMosaic

/-- The binary32 word 0x40000000 (sign 0, exponent 128, fraction 0) read as an extended real. -/
abbrev two : EReal := Ideal.ofBits .f32 0x40000000#32

/-- That word denotes the real number 2. -/
theorem two_eq : two = ((2 : ℝ) : EReal) := by
  simp [two, Ideal.ofBits, Ideal.ieee, -EReal.coe_mul]; norm_num

theorem two_nonneg : (0 : EReal) ≤ two := by
  rw [two_eq]; exact EReal.coe_nonneg.2 (by norm_num)

theorem two_ne_top : two ≠ ⊤ := by
  rw [two_eq]; exact EReal.coe_ne_top _

/-- 2 * (a * b - d * e) = (2 * a) * b - (2 * d) * e at all extended reals. -/
theorem two_mul_sub (a b d e : EReal) : two * (a * b - d * e) = two * a * b - two * d * e := by
  rw [EReal.mul_sub_of_nonneg_of_ne_top two_nonneg two_ne_top, mul_assoc, mul_assoc]

/-- 2 * (a * b + d * e) = (2 * a) * b + (2 * d) * e at all extended reals. -/
theorem two_mul_add (a b d e : EReal) : two * (a * b + d * e) = two * a * b + two * d * e := by
  rw [EReal.left_distrib_of_nonneg_of_ne_top two_nonneg two_ne_top, mul_assoc, mul_assoc]

/-- Entry `k` (row-major, k = 4 i + j) of the pose matrix [R | t] of the quaternion (q0, q1, q2, q3) and the
    translation (t0, t1, t2), each off-diagonal entry of R as a doubled sum or difference of products. -/
def entry (q0 q1 q2 q3 t0 t1 t2 : EReal) : Nat → EReal
  | 0 => q0 * q0 + q1 * q1 - q2 * q2 - q3 * q3
  | 1 => two * (q1 * q2 - q0 * q3)
  | 2 => two * (q1 * q3 + q0 * q2)
  | 3 => t0
  | 4 => two * (q1 * q2 + q0 * q3)
  | 5 => q0 * q0 - q1 * q1 + q2 * q2 - q3 * q3
  | 6 => two * (q2 * q3 - q0 * q1)
  | 7 => t1
  | 8 => two * (q1 * q3 - q0 * q2)
  | 9 => two * (q2 * q3 + q0 * q1)
  | 10 => q0 * q0 - q1 * q1 - q2 * q2 + q3 * q3
  | _ => t2

end Cert.Pose

end
-- ==== Proof.BlockValue.lean ====
/-
  What one launch of the kernel body leaves in its output block, as one function of its input block.

  The body loads a [7, L] block (L = 80000 lanes; rows q0, q1, q2, q3, t0, t1, t2), slices out the seven rows,
  forms products, sums and differences of rows lane by lane, and stores twelve [1, L] rows into the [12, L]
  output block.  Lane `l` of output row `k` is entry `k` of the pose matrix of the seven numbers in lane `l`
  of the input block: nothing mixes lanes.  Since each of the twelve stores writes one row of that one function,
  and the twelve rows tile the block, the block after the body IS that function.
-/
import proofs.«106254_j72378788873083_2_alg».proof.Proof.Gen.KernelIdeal.Frame
import proofs.«106254_j72378788873083_2_alg».proof.Proof.PoseLaw
import Idealize.ShloMosaic.Lib.Pipeline.Value
import Idealize.ShloMosaic.Lib.ValueIdx

noncomputable section

namespace Cert.KernelIdeal.PoseBlock

open Idealize.ShloMosaic Idealize.ShloMosaic.ValueIdx Idealize.SL.Sem
open Cert.KernelIdeal Cert.KernelIdeal.Gen Cert.Pose

/-- The offsets (0, 0), however spelt. -/
theorem zero_off : (![0, 0] : Fin 2 → Nat) = fun _ => 0 := funext fun a => by fin_cases a <;> rfl

/-- Row `r` of a [7, L] block, sliced out as a [1, L] vector, read at lane `l`, is the block at (r, l). -/
theorem slice_row (x : S7x80000.Idx → EReal) (off : Fin 2 → Nat) (h : S7x80000.Slices off S1x80000)
    (r : Fin 7) (hr : off 0 = r.val) (h0 : off 1 = 0) (u : Fin 1) (l : Fin 80000) :
    extractStridedSlice S1x80000 off x h (ix2 u l) = x (ix2 r l) :=
  extractStridedSlice_apply off x h (ix2 u l) (ix2 r l) (fun a => match a with
    | ⟨0, _⟩ => by show r.val = off 0 + u.val; have := u.isLt; omega
    | ⟨1, _⟩ => by show l.val = off 1 + l.val; omega)

section Rows
variable (x0 : Vec Ideal S7x80000 .f32) (u : Fin 1) (l : Fin 80000)

/-! The seven sliced rows at lane `l`. -/
theorem q0_at : k0_pay2 (F := Ideal) x0 (ix2 u l) = x0 (ix2 (0 : Fin 7) l) := by
  unfold k0_pay2 k0_pay1
  refine (slice_row _ _ _ 0 rfl rfl u l).trans ?_
  rw [shapeCast_self]
theorem q1_at : k0_pay3 (F := Ideal) x0 (ix2 u l) = x0 (ix2 (1 : Fin 7) l) := by
  unfold k0_pay3 k0_pay1
  refine (slice_row _ _ _ 1 rfl rfl u l).trans ?_
  rw [shapeCast_self]
theorem q2_at : k0_pay4 (F := Ideal) x0 (ix2 u l) = x0 (ix2 (2 : Fin 7) l) := by
  unfold k0_pay4 k0_pay1
  refine (slice_row _ _ _ 2 rfl rfl u l).trans ?_
  rw [shapeCast_self]
theorem q3_at : k0_pay5 (F := Ideal) x0 (ix2 u l) = x0 (ix2 (3 : Fin 7) l) := by
  unfold k0_pay5 k0_pay1
  refine (slice_row _ _ _ 3 rfl rfl u l).trans ?_
  rw [shapeCast_self]
theorem t0_at : k0_pay6 (F := Ideal) x0 (ix2 u l) = x0 (ix2 (4 : Fin 7) l) := by
  unfold k0_pay6 k0_pay1
  refine (slice_row _ _ _ 4 rfl rfl u l).trans ?_
  rw [shapeCast_self]
theorem t1_at : k0_pay7 (F := Ideal) x0 (ix2 u l) = x0 (ix2 (5 : Fin 7) l) := by
  unfold k0_pay7 k0_pay1
  refine (slice_row _ _ _ 5 rfl rfl u l).trans ?_
  rw [shapeCast_self]
theorem t2_at : k0_pay8 (F := Ideal) x0 (ix2 u l) = x0 (ix2 (6 : Fin 7) l) := by
  unfold k0_pay8 k0_pay1
  refine (slice_row _ _ _ 6 rfl rfl u l).trans ?_
  rw [shapeCast_self]

/-- Entry `k` of the pose matrix of the seven numbers in lane `l` of the block. -/
abbrev laneEntry (k : Nat) : EReal :=
  entry (x0 (ix2 (0 : Fin 7) l)) (x0 (ix2 (1 : Fin 7) l)) (x0 (ix2 (2 : Fin 7) l)) (x0 (ix2 (3 : Fin 7) l))
    (x0 (ix2 (4 : Fin 7) l)) (x0 (ix2 (5 : Fin 7) l)) (x0 (ix2 (6 : Fin 7) l)) k

/-! The nine computed rows at lane `l`: each is its entry of the pose matrix. -/
theorem r00_at : k0_pay19 (F := Ideal) x0 (ix2 u l) = laneEntry x0 l 0 := by
  simp only [k0_pay19, k0_pay9, k0_pay10, k0_pay11, k0_pay12, mulf_apply, addf_apply, subf_apply,
    q0_at, q1_at, q2_at, q3_at, entry]
theorem r01_at : k0_pay20 (F := Ideal) x0 (ix2 u l) = laneEntry x0 l 1 := by
  simp only [k0_pay20, k0_pay13, k0_pay14, mulf_apply, subf_apply, broadcast_apply, Scalar.ofBits, Ideal.ofBits_def,
    q0_at, q1_at, q2_at, q3_at, entry]
theorem r02_at : k0_pay21 (F := Ideal) x0 (ix2 u l) = laneEntry x0 l 2 := by
  simp only [k0_pay21, k0_pay15, k0_pay16, mulf_apply, addf_apply, broadcast_apply, Scalar.ofBits, Ideal.ofBits_def,
    q0_at, q1_at, q2_at, q3_at, entry]
theorem r10_at : k0_pay22 (F := Ideal) x0 (ix2 u l) = laneEntry x0 l 4 := by
  simp only [k0_pay22, k0_pay13, k0_pay14, mulf_apply, addf_apply, broadcast_apply, Scalar.ofBits, Ideal.ofBits_def,
    q0_at, q1_at, q2_at, q3_at, entry]
theorem r11_at : k0_pay23 (F := Ideal) x0 (ix2 u l) = laneEntry x0 l 5 := by
  simp only [k0_pay23, k0_pay9, k0_pay10, k0_pay11, k0_pay12, mulf_apply, addf_apply, subf_apply,
    q0_at, q1_at, q2_at, q3_at, entry]
theorem r12_at : k0_pay24 (F := Ideal) x0 (ix2 u l) = laneEntry x0 l 6 := by
  simp only [k0_pay24, k0_pay17, k0_pay18, mulf_apply, subf_apply, broadcast_apply, Scalar.ofBits, Ideal.ofBits_def,
    q0_at, q1_at, q2_at, q3_at, entry]
theorem r20_at : k0_pay25 (F := Ideal) x0 (ix2 u l) = laneEntry x0 l 8 := by
  simp only [k0_pay25, k0_pay15, k0_pay16, mulf_apply, subf_apply, broadcast_apply, Scalar.ofBits, Ideal.ofBits_def,
    q0_at, q1_at, q2_at, q3_at, entry]
theorem r21_at : k0_pay26 (F := Ideal) x0 (ix2 u l) = laneEntry x0 l 9 := by
  simp only [k0_pay26, k0_pay17, k0_pay18, mulf_apply, addf_apply, broadcast_apply, Scalar.ofBits, Ideal.ofBits_def,
    q0_at, q1_at, q2_at, q3_at, entry]
theorem r22_at : k0_pay27 (F := Ideal) x0 (ix2 u l) = laneEntry x0 l 10 := by
  simp only [k0_pay27, k0_pay9, k0_pay10, k0_pay11, k0_pay12, mulf_apply, addf_apply, subf_apply,
    q0_at, q1_at, q2_at, q3_at, entry]

end Rows

/-- The output block as one function of the input block: at (k, l), entry `k` of lane `l`'s pose matrix. -/
def blockFn (x0 : Vec Ideal S7x80000 .f32) : S12x80000.Idx → EReal :=
  fun y => laneEntry x0 (y 1) (y 0).val

/-- The block function read at a point of the one-row rectangle at row `k`: lane `l`'s entry `k`. -/
theorem blockFn_row (x0 : Vec Ideal S7x80000 .f32) (k : Nat) (inb : ∀ a, (![k, 0] : Fin 2 → Nat) a + S1x80000.size a ≤ S12x80000.size a)
    (u : Fin 1) (l : Fin 80000) :
    blockFn x0 ((Rect.unit (s := S12x80000) ![k, 0] S1x80000.size inb).emb (ix2 u l)) = laneEntry x0 l k := by
  have e1 : ((Rect.unit (s := S12x80000) ![k, 0] S1x80000.size inb).emb (ix2 u l)) 1 = l :=
    Fin.ext (by show 0 + 1 * l.val = l.val; omega)
  have e0 : (((Rect.unit (s := S12x80000) ![k, 0] S1x80000.size inb).emb (ix2 u l)) 0).val = k := by
    show k + 1 * u.val = k; have := u.isLt; omega
  unfold blockFn
  rw [e1, e0]

/-- The three translation rows are their entries of the pose matrix. -/
theorem t0_row (x0 : Vec Ideal S7x80000 .f32) (u : Fin 1) (l : Fin 80000) :
    k0_pay6 (F := Ideal) x0 (ix2 u l) = laneEntry x0 l 3 := (t0_at x0 u l).trans (by simp only [entry])
theorem t1_row (x0 : Vec Ideal S7x80000 .f32) (u : Fin 1) (l : Fin 80000) :
    k0_pay7 (F := Ideal) x0 (ix2 u l) = laneEntry x0 l 7 := (t1_at x0 u l).trans (by simp only [entry])
theorem t2_row (x0 : Vec Ideal S7x80000 .f32) (u : Fin 1) (l : Fin 80000) :
    k0_pay8 (F := Ideal) x0 (ix2 u l) = laneEntry x0 l 11 := (t2_at x0 u l).trans (by simp only [entry])

/-- WHAT THE BODY LEAVES in the output block: the twelve stores are the twelve rows of `blockFn` of the input
    block, and they cover the block. -/
theorem out_block_eq (x0 : Vec Ideal S7x80000 .f32) : out0_1 (F := Ideal) x0 = blockFn x0 := by
  funext y
  unfold out0_1
  simp only [View.ld_unit_zero (S := S7x80000) zero_off]
  refine View.canon_apply_of_pieces (Val := Elt Ideal) (e := .f32) (blockFn x0) _ ?_ y (cover0_1 _ _ _ _ _ _ _ _ _ _ _ _ y)
  intro p hp x
  simp only [List.mem_cons, List.not_mem_nil, or_false] at hp
  rcases hp with rfl | rfl | rfl | rfl | rfl | rfl | rfl | rfl | rfl | rfl | rfl | rfl
  all_goals obtain ⟨u, l, rfl⟩ : ∃ (u : Fin 1) (l : Fin 80000), x = ix2 u l := ⟨x 0, x 1, eq_ix2 x⟩
  · exact (t2_row x0 u l).trans (blockFn_row x0 11 inb_S12x80000_S1x80000_11_0 u l).symm
  · exact (r22_at x0 u l).trans (blockFn_row x0 10 inb_S12x80000_S1x80000_10_0 u l).symm
  · exact (r21_at x0 u l).trans (blockFn_row x0 9 inb_S12x80000_S1x80000_9_0 u l).symm
  · exact (r20_at x0 u l).trans (blockFn_row x0 8 inb_S12x80000_S1x80000_8_0 u l).symm
  · exact (t1_row x0 u l).trans (blockFn_row x0 7 inb_S12x80000_S1x80000_7_0 u l).symm
  · exact (r12_at x0 u l).trans (blockFn_row x0 6 inb_S12x80000_S1x80000_6_0 u l).symm
  · exact (r11_at x0 u l).trans (blockFn_row x0 5 inb_S12x80000_S1x80000_5_0 u l).symm
  · exact (r10_at x0 u l).trans (blockFn_row x0 4 inb_S12x80000_S1x80000_4_0 u l).symm
  · exact (t0_row x0 u l).trans (blockFn_row x0 3 inb_S12x80000_S1x80000_3_0 u l).symm
  · exact (r02_at x0 u l).trans (blockFn_row x0 2 inb_S12x80000_S1x80000_2_0 u l).symm
  · exact (r01_at x0 u l).trans (blockFn_row x0 1 inb_S12x80000_S1x80000_1_0 u l).symm
  · exact (r00_at x0 u l).trans (blockFn_row x0 0 inb_S12x80000_S1x80000_0_0 u l).symm

end Cert.KernelIdeal.PoseBlock

end
-- ==== Proof.PoseSpec.lean ====
/-
  The result array as one function of the argument array.

  The argument is [B, 7] (B = 4000000 rows: a quaternion and a translation per row); the result is [B, 3, 4]:
  at (n, a, b) entry 4 a + b of the pose matrix of row n.  Nothing mixes rows.  The same numbers arranged with the
  batch axis last — a [7, B] array in, a [12, B] array out, column n in to column n out — is the form one
  pipelined launch computes.
-/
import proofs.«106254_j72378788873083_2_alg».proof.Proof.PoseLaw
import Idealize.ShloMosaic.Lib.ValueIdx

noncomputable section

namespace Cert.Pose

open Idealize.ShloMosaic Idealize.ShloMosaic.ValueIdx

/-- Entry `k` of the pose matrix of row `n` of a [B, 7] array. -/
def rowEntry (x : (⟨2, ![4000000, 7]⟩ : Shape).Idx → EReal) (n : Fin 4000000) (k : Nat) : EReal :=
  entry (x (ix2 n (0 : Fin 7))) (x (ix2 n (1 : Fin 7))) (x (ix2 n (2 : Fin 7))) (x (ix2 n (3 : Fin 7)))
    (x (ix2 n (4 : Fin 7))) (x (ix2 n (5 : Fin 7))) (x (ix2 n (6 : Fin 7))) k

/-- The [B, 3, 4] result: at (n, a, b), entry 4 a + b of row n's pose matrix. -/
def pose (x : (⟨2, ![4000000, 7]⟩ : Shape).Idx → EReal) : (⟨3, ![4000000, 3, 4]⟩ : Shape).Idx → EReal :=
  fun i => rowEntry x (i 0) (4 * (i 1).val + (i 2).val)

/-- Entry `k` of the pose matrix of column `g` of a [7, B] array. -/
def colEntry (xt : (⟨2, ![7, 4000000]⟩ : Shape).Idx → EReal) (g : Fin 4000000) (k : Nat) : EReal :=
  entry (xt (ix2 (0 : Fin 7) g)) (xt (ix2 (1 : Fin 7) g)) (xt (ix2 (2 : Fin 7) g)) (xt (ix2 (3 : Fin 7) g))
    (xt (ix2 (4 : Fin 7) g)) (xt (ix2 (5 : Fin 7) g)) (xt (ix2 (6 : Fin 7) g)) k

/-- The [12, B] array with the batch axis last: at (k, g), entry k of column g's pose matrix. -/
def poseT (xt : (⟨2, ![7, 4000000]⟩ : Shape).Idx → EReal) : (⟨2, ![12, 4000000]⟩ : Shape).Idx → EReal :=
  fun i => colEntry xt (i 1) (i 0).val

end Cert.Pose

end
-- ==== Proof.KernelArray.lean ====
/-
  The kernel's output array after all fifty grid points.

  Grid point `t` stages columns [80000 t, 80000 (t + 1)) of the [7, B] operand, runs the body, and writes the
  resulting [12, 80000] block back to the same columns of the [12, B] output.  The body works lane by lane, so
  what point `t` writes back is the block of ONE whole-array function — column g of the output is the pose matrix
  of column g of the operand — and the fifty blocks tile the output: the array after the run is that function.
-/
import proofs.«106254_j72378788873083_2_alg».proof.Proof.BlockValue
import proofs.«106254_j72378788873083_2_alg».proof.Proof.PoseSpec
import Idealize.ShloMosaic.Lib.Pipeline.Value
import Idealize.ShloMosaic.Lib.ValueIdx

set_option maxRecDepth 16384

noncomputable section

namespace Cert.KernelIdeal.PoseArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PoseBlock Cert.Pose

/-- The body's block function of a block whose lanes are columns of `xt` is the block of `poseT xt`:
    at block position (k, l) sitting at array position i = (k, g), with lane l of the input block column g. -/
theorem block_of_cols (x0 : Vec Ideal S7x80000 .f32) (xt : S7x4000000.Idx → EReal) (k : Fin 12) (l : Fin 80000)
    (i : S12x4000000.Idx) (g : Fin 4000000) (hi0 : (i 0).val = k.val) (hi1 : i 1 = g)
    (hx : ∀ r : Fin 7, x0 (ix2 r l) = xt (ix2 r g)) :
    blockFn x0 (ix2 k l) = poseT xt i := by
  show entry (x0 (ix2 (0 : Fin 7) l)) (x0 (ix2 (1 : Fin 7) l)) (x0 (ix2 (2 : Fin 7) l)) (x0 (ix2 (3 : Fin 7) l))
      (x0 (ix2 (4 : Fin 7) l)) (x0 (ix2 (5 : Fin 7) l)) (x0 (ix2 (6 : Fin 7) l)) k.val = colEntry xt (i 1) (i 0).val
  rw [hi1, hi0, hx 0, hx 1, hx 2, hx 3, hx 4, hx 5, hx 6]
  rfl

/-- The printed index maps, decided over the fifty points: both windows sit at block row 0, block column t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

variable (m : (ℓ : Loc nD τ sig) → Buf (Elt Ideal) ℓ)

/-- WHAT POINT `t` WRITES BACK is block `t` of `poseT` of the operand array as the region finds it. -/
theorem flushed_eq (c : Dev nD) (t : Fin cfg0.N) :
    (dats m 0 c).flushed 1 t = ((cfg0.win 1).blk t).view.read (Elt Ideal) (poseT (V m c main_v0)) := by
  show (cfg0.win 1).cut (grid0.coords t) ((dats m 0 c).after 1 t) = _
  rw [after0_1, out_block_eq]
  obtain ⟨e0, e1, e2, e3⟩ := idx_facts t
  have ht : t.val < 50 := Nat.lt_of_lt_of_eq t.isLt N_0
  funext j
  obtain ⟨k, l, rfl⟩ : ∃ (k : Fin 12) (l : Fin 80000), j = ix2 k l := ⟨j 0, j 1, eq_ix2 j⟩
  refine block_of_cols _ _ k l _ ⟨t.val * 80000 + l.val, by omega⟩ ?_ ?_ ?_
  · show win0_1.index t (0 : Fin 2) * 12 + 1 * k.val = k.val
    omega
  · refine Fin.ext ?_
    show win0_1.index t (1 : Fin 2) * 80000 + 1 * l.val = t.val * 80000 + l.val
    omega
  · intro r
    show V m c main_v0 (((cfg0.win 0).blk t).view.emb (ix2 r l)) = V m c main_v0 (ix2 r ⟨t.val * 80000 + l.val, by omega⟩)
    refine congrArg _ (funext fun a => Fin.ext ?_)
    match a with
    | ⟨0, _⟩ => show win0_0.index t (0 : Fin 2) * 7 + 1 * r.val = r.val; omega
    | ⟨1, _⟩ => show win0_0.index t (1 : Fin 2) * 80000 + 1 * l.val = t.val * 80000 + l.val; omega

/-- An index of the output array is in point `t`'s block iff each coordinate is in the block's range. -/
theorem mem_blk (t : Fin cfg0.N) (i : S12x4000000.Idx) :
    i ∈ ((cfg0.win 1).blk t).view.set ↔ ∀ a : Fin 2, win0_1.index t a * S12x80000.size a ≤ (i a).val
      ∧ (i a).val < win0_1.index t a * S12x80000.size a + S12x80000.size a := by
  show i ∈ ((View.whole main_v1).slice (win0_1.rect t)).set ↔ _
  rw [View.set_slice_whole, Rect.mem_set_unit]
  exact Iff.rfl

/-- Every index of the output array is in some point's block: column g is in block g / 80000. -/
theorem cover (i : S12x4000000.Idx) :
    ∃ t : Fin cfg0.N, (cfg0.win 1).flush t = true ∧ i ∈ ((cfg0.win 1).blk t).view.set := by
  have hi0 : (i 0).val < 12 := (i 0).isLt
  have hi1 : (i 1).val < 4000000 := (i 1).isLt
  obtain ⟨t, ht⟩ : ∃ t : Fin cfg0.N, t.val = (i 1).val / 80000 :=
    ⟨⟨(i 1).val / 80000, Nat.lt_of_lt_of_eq (by omega) N_0.symm⟩, rfl⟩
  obtain ⟨e0, e1, e2, e3⟩ := idx_facts t
  refine ⟨t, flush0_1 t, ?_⟩
  rw [mem_blk]
  intro a
  match a with
  | ⟨0, _⟩ =>
    show win0_1.index t (0 : Fin 2) * 12 ≤ (i 0).val ∧ (i 0).val < win0_1.index t (0 : Fin 2) * 12 + 12
    omega
  | ⟨1, _⟩ =>
    show win0_1.index t (1 : Fin 2) * 80000 ≤ (i 1).val ∧ (i 1).val < win0_1.index t (1 : Fin 2) * 80000 + 80000
    omega

/-- THE OUTPUT ARRAY after the run: `poseT` of the operand array as the region finds it. -/
theorem final (c : Dev nD) : (dats m 0 c).arrAt 1 cfg0.N = poseT (V m c main_v0) :=
  (dats m 0 c).arrAt_eq_of_cover 1 (poseT (V m c main_v0)) (fun t _ => flushed_eq m c t) cover

end Cert.KernelIdeal.PoseArray

end
-- ==== Proof.KernelRun.lean ====
/-
  The kernel program's result array is the pose array of its argument.

  Before the launch the host transposes the [B, 7] argument to [7, B]; after it, it transposes the [12, B]
  output to [B, 12] and reshapes that to [B, 3, 4].  So the result at (n, a, b) is the output array at
  (4 a + b, n): entry 4 a + b of the pose matrix of column n of the transposed argument, which is row n of
  the argument.
-/
import proofs.«106254_j72378788873083_2_alg».proof.Proof.KernelArray
import Idealize.ShloMosaic.Lib.Pipeline.Value
import Idealize.ShloMosaic.Lib.ValueIdx
import Idealize.ShloMosaic.Lib.StableHlo.Run

set_option maxRecDepth 16384

noncomputable section

namespace Cert.KernelIdeal.PoseRun

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.PoseArray Cert.Pose

variable (m : (ℓ : Loc nD τ sig) → Buf (Elt Ideal) ℓ) (ρ : Dev nD → PrngReg)

/-- The operand array as the region finds it: the transposed argument. -/
theorem operand_eq (c : Dev nD) : (V m c main_v0 : S7x4000000.Idx → EReal)
    = transpose S7x4000000 [1, 0] (m ((c : Thread nD τ).loc main_arg0)) transposes_S4000000x7_S7x4000000_1_0 := by
  show StableHlo.after hostOps0 (fun b => m (c, b)) (Proc.devRef .tc main_v0) = _
  after_results

/-- Read at (r, g): the argument at (g, r). -/
theorem operand_at (c : Dev nD) (r : Fin 7) (g : Fin 4000000) :
    V m c main_v0 (ix2 r g) = m ((c : Thread nD τ).loc main_arg0) (ix2 g r) :=
  (congrFun (operand_eq m c) (ix2 r g)).trans
    (transpose_apply [1, 0] _ transposes_S4000000x7_S7x4000000_1_0 (ix2 r g) (ix2 g r)
      (fun b => match b with | ⟨0, _⟩ => rfl | ⟨1, _⟩ => rfl))

/-- Column `g` of the operand is row `g` of the argument, so their pose entries agree. -/
theorem colEntry_operand (c : Dev nD) (g : Fin 4000000) (k : Nat) :
    colEntry (V m c main_v0) g k = rowEntry (m ((c : Thread nD τ).loc main_arg0)) g k := by
  unfold colEntry rowEntry
  rw [operand_at, operand_at, operand_at, operand_at, operand_at, operand_at, operand_at]

/-- THE RESULT after the host tail: the pose array of the argument. -/
theorem result_eq (c : Dev nD) :
    Pipeline.afterTail₀ cfgs (dats m) 0 (V0 m) [hostOps1] c main_v3 = pose (m ((c : Thread nD τ).loc main_arg0)) := by
  have e : Pipeline.withArrays (cfgs 0).spec c (V0 m c) (fun w => (dats m 0 c).arrAt w (cfgs 0).N) (Proc.devRef .tc main_v1)
      = poseT (V m c main_v0) := (Pipeline.withArrays_arr spec0 launch0.win.arr_inj c _ _ 1).trans (final m c)
  unfold Pipeline.afterTail₀
  show StableHlo.after hostOps1 _ (Proc.devRef .tc main_v3) = _
  after_results
  rw [e]
  refine funext fun (i : S4000000x3x4.Idx) => ?_
  obtain ⟨n, a, b, rfl⟩ : ∃ (n : Fin 4000000) (a : Fin 3) (b : Fin 4), i = ix3 n a b := ⟨i 0, i 1, i 2, eq_ix3 i⟩
  have ha := a.isLt
  have hb := b.isLt
  show shapeCast S4000000x3x4 (transpose S4000000x12 [1, 0] (poseT (V m c main_v0)) transposes_S12x4000000_S4000000x12_1_0)
      shapeCasts_S4000000x12_S4000000x3x4 (ix3 n a b) = rowEntry (m ((c : Thread nD τ).loc main_arg0)) n (4 * a.val + b.val)
  refine (shapeCast_apply _ shapeCasts_S4000000x12_S4000000x3x4 (ix3 n a b) (ix2 n (⟨4 * a.val + b.val, by omega⟩ : Fin 12)) ?_).trans ?_
  · rewrite [Shape.rowMajor_val_two, Shape.rowMajor_val_three]
    show n.val * 12 + (4 * a.val + b.val) = (n.val * 3 + a.val) * 4 + b.val
    omega
  refine (transpose_apply [1, 0] _ transposes_S12x4000000_S4000000x12_1_0 (ix2 n (⟨4 * a.val + b.val, by omega⟩ : Fin 12))
    (ix2 (⟨4 * a.val + b.val, by omega⟩ : Fin 12) n) (fun d => match d with | ⟨0, _⟩ => rfl | ⟨1, _⟩ => rfl)).trans ?_
  exact colEntry_operand m c n (4 * a.val + b.val)

/-- THE KERNEL PROGRAM'S RUN: every weakly fair execution terminates with the result at the pose array of the
    argument and the argument unchanged. -/
theorem run : θ_run defs (onTc (τ := τ) (main (F := Ideal))) ⟨m, fun _ => 0, ρ⟩ (fun r => ∀ c : Dev nD,
      r.2.mem ((c.tc : Thread nD τ).loc main_v3) = pose (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.KernelIdeal.PoseRun

end
-- ==== Proof.RefRows.lean ====
/-
  The reference, column by column, at one row.

  The reference slices the four quaternion columns and the three translation columns out of the [B, 7] argument
  and computes nine [B] columns from the quaternion ones, elementwise.  At row `n` each is an entry of row n's
  pose matrix: the three diagonal ones are spelt exactly as the entry is; the six off-diagonal ones have the
  doubling inside each product, (2 * a) * b ± (2 * d) * e, and meet the entry 2 * (a * b ± d * e) by the doubling
  laws, which hold at every extended real.
-/
import proofs.«106254_j72378788873083_2_alg».proof.Proof.Gen.ReferenceIdeal.Read
import proofs.«106254_j72378788873083_2_alg».proof.Proof.PoseSpec
import Idealize.ShloMosaic.Lib.ValueIdx

noncomputable section

namespace Cert.ReferenceIdeal.PoseRef

open Idealize.ShloMosaic Idealize.ShloMosaic.ValueIdx
open Cert.ReferenceIdeal Cert.ReferenceIdeal.Read Cert.Pose

variable (x : (⟨S4000000x7, .f32⟩ : BufTy).Contents (Elt Ideal)) (n : Fin 4000000)

/-! The four quaternion columns at row `n`. -/
theorem q0_at : val_main_v1 (F := Ideal) x (ix1 n) = x (ix2 n (0 : Fin 7)) := by
  rw [val_main_v1_apply, val_main_v0_apply]
  refine congrArg x (funext fun a => Fin.ext ?_)
  match a with
  | ⟨0, _⟩ => show n.val / 1 = n.val; omega
  | ⟨1, _⟩ => rfl
theorem q1_at : val_main_v3 (F := Ideal) x (ix1 n) = x (ix2 n (1 : Fin 7)) := by
  rw [val_main_v3_apply, val_main_v2_apply]
  refine congrArg x (funext fun a => Fin.ext ?_)
  match a with
  | ⟨0, _⟩ => show n.val / 1 = n.val; omega
  | ⟨1, _⟩ => rfl
theorem q2_at : val_main_v5 (F := Ideal) x (ix1 n) = x (ix2 n (2 : Fin 7)) := by
  rw [val_main_v5_apply, val_main_v4_apply]
  refine congrArg x (funext fun a => Fin.ext ?_)
  match a with
  | ⟨0, _⟩ => show n.val / 1 = n.val; omega
  | ⟨1, _⟩ => rfl
theorem q3_at : val_main_v7 (F := Ideal) x (ix1 n) = x (ix2 n (3 : Fin 7)) := by
  rw [val_main_v7_apply, val_main_v6_apply]
  refine congrArg x (funext fun a => Fin.ext ?_)
  match a with
  | ⟨0, _⟩ => show n.val / 1 = n.val; omega
  | ⟨1, _⟩ => rfl

/-- The translation columns at row `n`: column `a` of the [B, 3] slice is column 4 + a of the argument. -/
theorem t_at (a : Fin 3) : val_main_v8 (F := Ideal) x (ix2 n a) = x (ix2 n (⟨4 + a.val, by omega⟩ : Fin 7)) := by
  rw [val_main_v8_apply]
  refine congrArg x (funext fun d => Fin.ext ?_)
  match d with
  | ⟨0, _⟩ => rfl
  | ⟨1, _⟩ => rfl

/-! The three diagonal entries at row `n`. -/
theorem r00_at : val_main_v15 (F := Ideal) x (ix1 n) = rowEntry x n 0 := by
  simp only [val_main_v15_apply, val_main_v14_apply, val_main_v13_apply, val_main_v9_apply, val_main_v10_apply,
    val_main_v11_apply, val_main_v12_apply, q0_at, q1_at, q2_at, q3_at, Ideal.mulf_def, Ideal.addf_def, Ideal.subf_def,
    rowEntry, entry]
theorem r11_at : val_main_v39 (F := Ideal) x (ix1 n) = rowEntry x n 5 := by
  simp only [val_main_v39_apply, val_main_v38_apply, val_main_v37_apply, val_main_v9_apply, val_main_v10_apply,
    val_main_v11_apply, val_main_v12_apply, q0_at, q1_at, q2_at, q3_at, Ideal.mulf_def, Ideal.addf_def, Ideal.subf_def,
    rowEntry, entry]
theorem r22_at : val_main_v63 (F := Ideal) x (ix1 n) = rowEntry x n 10 := by
  simp only [val_main_v63_apply, val_main_v62_apply, val_main_v61_apply, val_main_v9_apply, val_main_v10_apply,
    val_main_v11_apply, val_main_v12_apply, q0_at, q1_at, q2_at, q3_at, Ideal.mulf_def, Ideal.addf_def, Ideal.subf_def,
    rowEntry, entry]

/-! The six off-diagonal entries at row `n`: the reference's spelling, then the doubling law. -/
theorem r01_at : val_main_v22 (F := Ideal) x (ix1 n) = rowEntry x n 1 := by
  simp only [val_main_v22_apply, val_main_v18_apply, val_main_v17_apply, val_main_v16_apply, val_main_cst_apply,
    val_main_v21_apply, val_main_v20_apply, val_main_v19_apply, val_main_cst_0_apply,
    q0_at, q1_at, q2_at, q3_at, Ideal.mulf_def, Ideal.subf_def, Ideal.ofBits_def, rowEntry, entry]
  exact (two_mul_sub _ _ _ _).symm
theorem r02_at : val_main_v29 (F := Ideal) x (ix1 n) = rowEntry x n 2 := by
  simp only [val_main_v29_apply, val_main_v25_apply, val_main_v24_apply, val_main_v23_apply, val_main_cst_1_apply,
    val_main_v28_apply, val_main_v27_apply, val_main_v26_apply, val_main_cst_2_apply,
    q0_at, q1_at, q2_at, q3_at, Ideal.mulf_def, Ideal.addf_def, Ideal.ofBits_def, rowEntry, entry]
  exact (two_mul_add _ _ _ _).symm
theorem r10_at : val_main_v36 (F := Ideal) x (ix1 n) = rowEntry x n 4 := by
  simp only [val_main_v36_apply, val_main_v32_apply, val_main_v31_apply, val_main_v30_apply, val_main_cst_3_apply,
    val_main_v35_apply, val_main_v34_apply, val_main_v33_apply, val_main_cst_4_apply,
    q0_at, q1_at, q2_at, q3_at, Ideal.mulf_def, Ideal.addf_def, Ideal.ofBits_def, rowEntry, entry]
  exact (two_mul_add _ _ _ _).symm
theorem r12_at : val_main_v46 (F := Ideal) x (ix1 n) = rowEntry x n 6 := by
  simp only [val_main_v46_apply, val_main_v42_apply, val_main_v41_apply, val_main_v40_apply, val_main_cst_5_apply,
    val_main_v45_apply, val_main_v44_apply, val_main_v43_apply, val_main_cst_6_apply,
    q0_at, q1_at, q2_at, q3_at, Ideal.mulf_def, Ideal.subf_def, Ideal.ofBits_def, rowEntry, entry]
  exact (two_mul_sub _ _ _ _).symm
theorem r20_at : val_main_v53 (F := Ideal) x (ix1 n) = rowEntry x n 8 := by
  simp only [val_main_v53_apply, val_main_v49_apply, val_main_v48_apply, val_main_v47_apply, val_main_cst_7_apply,
    val_main_v52_apply, val_main_v51_apply, val_main_v50_apply, val_main_cst_8_apply,
    q0_at, q1_at, q2_at, q3_at, Ideal.mulf_def, Ideal.subf_def, Ideal.ofBits_def, rowEntry, entry]
  exact (two_mul_sub _ _ _ _).symm
theorem r21_at : val_main_v60 (F := Ideal) x (ix1 n) = rowEntry x n 9 := by
  simp only [val_main_v60_apply, val_main_v56_apply, val_main_v55_apply, val_main_v54_apply, val_main_cst_9_apply,
    val_main_v59_apply, val_main_v58_apply, val_main_v57_apply, val_main_cst_10_apply,
    q0_at, q1_at, q2_at, q3_at, Ideal.mulf_def, Ideal.addf_def, Ideal.ofBits_def, rowEntry, entry]
  exact (two_mul_add _ _ _ _).symm

end Cert.ReferenceIdeal.PoseRef

end
-- ==== Proof.RefValue.lean ====
/-
  The reference's result array is the pose array.

  The nine computed columns, each broadcast to [B, 1], are stacked along axis 1 into [B, 9] and reshaped to
  [B, 3, 3]: entry (n, a, b') is column 3 a + b' of the stack, the rotation entry r_ab' of row n, which is entry
  4 a + b' of the 3 x 4 pose matrix.  The translation columns [B, 3] become [B, 3, 1] and are joined on the last
  axis: entry (n, a, 3) is t_a of row n, entry 4 a + 3 of the pose matrix.
-/
import proofs.«106254_j72378788873083_2_alg».proof.Proof.RefRows
import Idealize.ShloMosaic.Lib.Pipeline.Value

noncomputable section

namespace Cert.ReferenceIdeal.PoseRef

open Idealize.ShloMosaic Idealize.ShloMosaic.ValueIdx
open Cert.ReferenceIdeal Cert.ReferenceIdeal.Gen Cert.ReferenceIdeal.Read Cert.Pose

variable (x : (⟨S4000000x7, .f32⟩ : BufTy).Contents (Elt Ideal)) (n : Fin 4000000)

section Columns
variable (u : Fin 1)
/-! Each computed column as a [B, 1] array, at row `n`. -/
theorem col0_at : val_main_v64 (F := Ideal) x (ix2 n u) = rowEntry x n 0 :=
  ((val_main_v64_apply x _).trans (congrArg (val_main_v15 (F := Ideal) x) (funext fun a => match a with | ⟨0, _⟩ => rfl))).trans (r00_at x n)
theorem col1_at : val_main_v65 (F := Ideal) x (ix2 n u) = rowEntry x n 1 :=
  ((val_main_v65_apply x _).trans (congrArg (val_main_v22 (F := Ideal) x) (funext fun a => match a with | ⟨0, _⟩ => rfl))).trans (r01_at x n)
theorem col2_at : val_main_v66 (F := Ideal) x (ix2 n u) = rowEntry x n 2 :=
  ((val_main_v66_apply x _).trans (congrArg (val_main_v29 (F := Ideal) x) (funext fun a => match a with | ⟨0, _⟩ => rfl))).trans (r02_at x n)
theorem col3_at : val_main_v67 (F := Ideal) x (ix2 n u) = rowEntry x n 4 :=
  ((val_main_v67_apply x _).trans (congrArg (val_main_v36 (F := Ideal) x) (funext fun a => match a with | ⟨0, _⟩ => rfl))).trans (r10_at x n)
theorem col4_at : val_main_v68 (F := Ideal) x (ix2 n u) = rowEntry x n 5 :=
  ((val_main_v68_apply x _).trans (congrArg (val_main_v39 (F := Ideal) x) (funext fun a => match a with | ⟨0, _⟩ => rfl))).trans (r11_at x n)
theorem col5_at : val_main_v69 (F := Ideal) x (ix2 n u) = rowEntry x n 6 :=
  ((val_main_v69_apply x _).trans (congrArg (val_main_v46 (F := Ideal) x) (funext fun a => match a with | ⟨0, _⟩ => rfl))).trans (r12_at x n)
theorem col6_at : val_main_v70 (F := Ideal) x (ix2 n u) = rowEntry x n 8 :=
  ((val_main_v70_apply x _).trans (congrArg (val_main_v53 (F := Ideal) x) (funext fun a => match a with | ⟨0, _⟩ => rfl))).trans (r20_at x n)
theorem col7_at : val_main_v71 (F := Ideal) x (ix2 n u) = rowEntry x n 9 :=
  ((val_main_v71_apply x _).trans (congrArg (val_main_v60 (F := Ideal) x) (funext fun a => match a with | ⟨0, _⟩ => rfl))).trans (r21_at x n)
theorem col8_at : val_main_v72 (F := Ideal) x (ix2 n u) = rowEntry x n 10 :=
  ((val_main_v72_apply x _).trans (congrArg (val_main_v63 (F := Ideal) x) (funext fun a => match a with | ⟨0, _⟩ => rfl))).trans (r22_at x n)
end Columns

/-- Column `c` of the [B, 9] stack at row `n` is the rotation entry r_ab', c = 3 a + b', that is entry 4 a + b'
    of the pose matrix. -/
theorem stack_at : ∀ (c : Nat) (hc : c < 9),
    val_main_v73 (F := Ideal) x (ix2 n (⟨c, hc⟩ : Fin 9)) = rowEntry x n (c / 3 * 4 + c % 3) := by
  intro c hc
  unfold val_main_v73
  match c, hc with
  | 0, hc =>
    exact (concatenate_apply_piece (1 : Fin 2) _ _ (ix2 n (⟨0, hc⟩ : Fin 9)) 0 (by show (0 : ℕ) < 9; omega) S4000000x1 (val_main_v64 (F := Ideal) x) rfl rfl 0 rfl
      (ix2 n (0 : Fin 1)) (fun b hb => match b with | ⟨0, _⟩ => rfl | ⟨1, _⟩ => absurd rfl hb) rfl).trans (col0_at x n 0)
  | 1, hc =>
    exact (concatenate_apply_piece (1 : Fin 2) _ _ (ix2 n (⟨1, hc⟩ : Fin 9)) 1 (by show (1 : ℕ) < 9; omega) S4000000x1 (val_main_v65 (F := Ideal) x) rfl rfl 1 rfl
      (ix2 n (0 : Fin 1)) (fun b hb => match b with | ⟨0, _⟩ => rfl | ⟨1, _⟩ => absurd rfl hb) rfl).trans (col1_at x n 0)
  | 2, hc =>
    exact (concatenate_apply_piece (1 : Fin 2) _ _ (ix2 n (⟨2, hc⟩ : Fin 9)) 2 (by show (2 : ℕ) < 9; omega) S4000000x1 (val_main_v66 (F := Ideal) x) rfl rfl 2 rfl
      (ix2 n (0 : Fin 1)) (fun b hb => match b with | ⟨0, _⟩ => rfl | ⟨1, _⟩ => absurd rfl hb) rfl).trans (col2_at x n 0)
  | 3, hc =>
    exact (concatenate_apply_piece (1 : Fin 2) _ _ (ix2 n (⟨3, hc⟩ : Fin 9)) 3 (by show (3 : ℕ) < 9; omega) S4000000x1 (val_main_v67 (F := Ideal) x) rfl rfl 3 rfl
      (ix2 n (0 : Fin 1)) (fun b hb => match b with | ⟨0, _⟩ => rfl | ⟨1, _⟩ => absurd rfl hb) rfl).trans (col3_at x n 0)
  | 4, hc =>
    exact (concatenate_apply_piece (1 : Fin 2) _ _ (ix2 n (⟨4, hc⟩ : Fin 9)) 4 (by show (4 : ℕ) < 9; omega) S4000000x1 (val_main_v68 (F := Ideal) x) rfl rfl 4 rfl
      (ix2 n (0 : Fin 1)) (fun b hb => match b with | ⟨0, _⟩ => rfl | ⟨1, _⟩ => absurd rfl hb) rfl).trans (col4_at x n 0)
  | 5, hc =>
    exact (concatenate_apply_piece (1 : Fin 2) _ _ (ix2 n (⟨5, hc⟩ : Fin 9)) 5 (by show (5 : ℕ) < 9; omega) S4000000x1 (val_main_v69 (F := Ideal) x) rfl rfl 5 rfl
      (ix2 n (0 : Fin 1)) (fun b hb => match b with | ⟨0, _⟩ => rfl | ⟨1, _⟩ => absurd rfl hb) rfl).trans (col5_at x n 0)
  | 6, hc =>
    exact (concatenate_apply_piece (1 : Fin 2) _ _ (ix2 n (⟨6, hc⟩ : Fin 9)) 6 (by show (6 : ℕ) < 9; omega) S4000000x1 (val_main_v70 (F := Ideal) x) rfl rfl 6 rfl
      (ix2 n (0 : Fin 1)) (fun b hb => match b with | ⟨0, _⟩ => rfl | ⟨1, _⟩ => absurd rfl hb) rfl).trans (col6_at x n 0)
  | 7, hc =>
    exact (concatenate_apply_piece (1 : Fin 2) _ _ (ix2 n (⟨7, hc⟩ : Fin 9)) 7 (by show (7 : ℕ) < 9; omega) S4000000x1 (val_main_v71 (F := Ideal) x) rfl rfl 7 rfl
      (ix2 n (0 : Fin 1)) (fun b hb => match b with | ⟨0, _⟩ => rfl | ⟨1, _⟩ => absurd rfl hb) rfl).trans (col7_at x n 0)
  | 8, hc =>
    exact (concatenate_apply_piece (1 : Fin 2) _ _ (ix2 n (⟨8, hc⟩ : Fin 9)) 8 (by show (8 : ℕ) < 9; omega) S4000000x1 (val_main_v72 (F := Ideal) x) rfl rfl 8 rfl
      (ix2 n (0 : Fin 1)) (fun b hb => match b with | ⟨0, _⟩ => rfl | ⟨1, _⟩ => absurd rfl hb) rfl).trans (col8_at x n 0)
  | c + 9, hc => exact absurd hc (by omega)

/-- The [B, 3, 3] rotation block at (n, a, b'). -/
theorem rot_at (a b' : Fin 3) : val_main_v74 (F := Ideal) x (ix3 n a b') = rowEntry x n (4 * a.val + b'.val) := by
  have ha := a.isLt
  have hb := b'.isLt
  have hn := n.isLt
  have e : idx_main_v74 (ix3 n a b') = ix2 n (⟨3 * a.val + b'.val, by omega⟩ : Fin 9) := by
    funext d
    refine Fin.ext ?_
    match d with
    | ⟨0, _⟩ => show ((n.val * 3 + a.val) * 3 + b'.val) / 9 = n.val; omega
    | ⟨1, _⟩ => show ((n.val * 3 + a.val) * 3 + b'.val) % 9 = 3 * a.val + b'.val; omega
  rw [val_main_v74_apply, e, stack_at x n (3 * a.val + b'.val) (by omega)]
  refine congrArg (rowEntry x n) ?_
  omega

/-- The [B, 3, 1] translation block at (n, a, 0). -/
theorem trans_at (a : Fin 3) (u : Fin 1) : val_main_v75 (F := Ideal) x (ix3 n a u) = rowEntry x n (4 * a.val + 3) := by
  have e : idx_main_v75 (ix3 n a u) = ix2 n a := by
    funext d
    match d with
    | ⟨0, _⟩ => rfl
    | ⟨1, _⟩ => rfl
  rw [val_main_v75_apply, e, t_at]
  match a with
  | ⟨0, _⟩ => rfl
  | ⟨1, _⟩ => rfl
  | ⟨2, _⟩ => rfl

/-- THE REFERENCE'S RESULT: the pose array of its argument. -/
theorem result_eq : val_main_v76 (F := Ideal) x = pose x := by
  funext i
  obtain ⟨n, a, b, rfl⟩ : ∃ (n : Fin 4000000) (a : Fin 3) (b : Fin 4), i = ix3 n a b := ⟨i 0, i 1, i 2, eq_ix3 i⟩
  have hb := b.isLt
  show val_main_v76 (F := Ideal) x (ix3 n a b) = rowEntry x n (4 * a.val + b.val)
  unfold val_main_v76
  by_cases h3 : b.val < 3
  · refine (concatenate_pair_apply_left (t := S4000000x3x4) (s₁ := S4000000x3x3) (s₂ := S4000000x3x1) (2 : Fin 3)
      (val_main_v74 (F := Ideal) x) (val_main_v75 (F := Ideal) x) concatenates_S4000000x3x3_S4000000x3x1_S4000000x3x4_d2
      (ix3 n a b) rfl (ix3 n a (⟨b.val, h3⟩ : Fin 3))
      (fun d => match d with | ⟨0, _⟩ => rfl | ⟨1, _⟩ => rfl | ⟨2, _⟩ => rfl)).trans ?_
    exact rot_at x n a ⟨b.val, h3⟩
  · have hb3 : b.val = 3 := by omega
    refine (concatenate_pair_apply_right (t := S4000000x3x4) (s₁ := S4000000x3x3) (s₂ := S4000000x3x1) (2 : Fin 3)
      (val_main_v74 (F := Ideal) x) (val_main_v75 (F := Ideal) x) concatenates_S4000000x3x3_S4000000x3x1_S4000000x3x4_d2
      (ix3 n a b) rfl rfl (ix3 n a (0 : Fin 1))
      (fun d hd => match d with | ⟨0, _⟩ => rfl | ⟨1, _⟩ => rfl | ⟨2, _⟩ => absurd rfl hd)
      (by show 0 + 3 = b.val; omega)).trans ?_
    rw [hb3]
    exact trans_at x n a 0

end Cert.ReferenceIdeal.PoseRef

end
-- ==== Proof.lean ====
/-
  A quaternion-and-translation to pose-matrix layer, 4000000 rows at a time, against its plain reference.

  Each row (q0, q1, q2, q3, t0, t1, t2) of the [B, 7] argument gives the 3 x 4 matrix [R | t]: R the rotation
  matrix of the quaternion, with diagonal entries q0² ± q1² ± q2² ± q3² and off-diagonal entries twice a sum or a
  difference of two products, t the translation.  The result is [B, 3, 4].

  The kernel program transposes the argument to [7, B], computes a [12, B] array fifty column blocks at a
  time — lane by lane, output row k the k-th entry (row-major) of the lane's pose matrix, each off-diagonal entry
  as 2 * (a * b ± d * e) —, transposes back and reshapes.  The reference computes nine [B] columns, each
  off-diagonal entry as (2 * a) * b ± (2 * d) * e, stacks them into [B, 3, 3] and joins the translation as a
  fourth column.  On the extended reals both are ONE function of the argument, the pose array `Cert.Pose.pose`:
  the two spellings of an off-diagonal entry agree at every extended real because the factor 2 is a nonnegative
  real number, for which multiplication distributes over addition and subtraction there.  No entry has to be
  finite for this, so the precondition is not used in the value claim.

  The frames of the two kernel programs are their generated frame certificates; the reference's frame is its
  generated run with the result forgotten; the idealization rewrote nothing, so `preserves` is trivial.
-/
import proofs.«106254_j72378788873083_2_alg».proof.Defs
import proofs.«106254_j72378788873083_2_alg».proof.Proof.Gen.Kernel
import proofs.«106254_j72378788873083_2_alg».proof.Proof.Gen.Kernel.Skeleton
import proofs.«106254_j72378788873083_2_alg».proof.Proof.Gen.Kernel.Launch
import proofs.«106254_j72378788873083_2_alg».proof.Proof.Gen.Kernel.Points
import proofs.«106254_j72378788873083_2_alg».proof.Proof.Gen.Kernel.Frame
import proofs.«106254_j72378788873083_2_alg».proof.Proof.Gen.KernelIdeal
import proofs.«106254_j72378788873083_2_alg».proof.Proof.Gen.KernelIdeal.Skeleton
import proofs.«106254_j72378788873083_2_alg».proof.Proof.Gen.KernelIdeal.Launch
import proofs.«106254_j72378788873083_2_alg».proof.Proof.Gen.KernelIdeal.Points
import proofs.«106254_j72378788873083_2_alg».proof.Proof.Gen.KernelIdeal.Frame
import proofs.«106254_j72378788873083_2_alg».proof.Proof.Gen.ReferenceIdeal
import proofs.«106254_j72378788873083_2_alg».proof.Proof.Gen.Pre_finite_inputs
import proofs.«106254_j72378788873083_2_alg».proof.Proof.Gen.ReferenceIdeal.Run
import proofs.«106254_j72378788873083_2_alg».proof.Proof.Gen.ReferenceIdeal.Read
import proofs.«106254_j72378788873083_2_alg».proof.Proof.KernelRun
import proofs.«106254_j72378788873083_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument as it was. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the pose array of the argument. -/
theorem algebraic : Cert.algebraic_KernelIdeal_ReferenceIdeal := by
  intro m ρ m' ρ' _ hagree
  refine ⟨fun c => Cert.Pose.pose (m ((c.tc : Thread Cert.KernelIdeal.nD Cert.KernelIdeal.τ).loc Cert.KernelIdeal.main_arg0)),
    Cert.KernelIdeal.PoseRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v76_eq, Cert.ReferenceIdeal.PoseRef.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
